-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32x8192 : Shape := ⟨3, ![256, 32, 8192]⟩
abbrev S256x1x8192 : Shape := ⟨3, ![256, 1, 8192]⟩
abbrev S_ : Shape := ⟨0, ![]⟩

class Facts : Prop where
  bcast_S_S256x1x8192 : S_.BroadcastsInDim S256x1x8192 (![] : Fin 0 → Fin S256x1x8192.rank)
  reducesTo_S256x1x8192_S_d0_1_2 : S256x1x8192.ReducesTo [0, 1, 2] S_
  h_S_ : 0 < S_.numel

variable [Facts]

def fn {F : FTy → Type} [FloatOps F] (main_arg0 : IVec S256x32x8192 32) (main_arg1 : FVec F S256x1x8192 .f32) : IVec S_ 1 :=
  let main_v0 : FVec F S256x1x8192 .f32 := Host.absf main_arg1
  let main_cst : FVec F S_ .f32 := constant S_ .f32 0x7F800000#32
  let main_v1 : FVec F S256x1x8192 .f32 := broadcastInDim S256x1x8192 ![] bcast_S_S256x1x8192 main_cst
  let main_v2 : IVec S256x1x8192 1 := cmpf .olt main_v0 main_v1
  let main_c : IVec S_ 1 := constantI S_ 1 1#1
  let main_v3 : IVec S_ 1 := (fun x v => Host.reduce IntOp.andi x v reducesTo_S256x1x8192_S_d0_1_2 h_S_) main_v2 main_c
  main_v3
-- ==== Kernel.lean ====
abbrev S256x32x8192 : Shape := ⟨3, ![256, 32, 8192]⟩
abbrev S256x1x8192 : Shape := ⟨3, ![256, 1, 8192]⟩
abbrev S16x32x1024 : Shape := ⟨3, ![16, 32, 1024]⟩
abbrev S16x1x1024 : Shape := ⟨3, ![16, 1, 1024]⟩
abbrev S8192x8192 : Shape := ⟨2, ![8192, 8192]⟩

abbrev nBuf : Space → Nat
  | .hbm => 4
  | .vmem => 6
  | .smem => 0
  | _ => 0

abbrev bufTy : (tb : Table) → Fin (tcTables nBuf tb) → BufTy
  | .hbm, ⟨0, _⟩ => ⟨S256x32x8192, .i32⟩
  | .hbm, ⟨1, _⟩ => ⟨S256x1x8192, .f32⟩
  | .hbm, ⟨2, _⟩ => ⟨S256x32x8192, .f32⟩
  | .hbm, ⟨3, _⟩ => ⟨S8192x8192, .f32⟩
  | .local _ .vmem, ⟨0, _⟩ => ⟨S16x32x1024, .i32⟩
  | .local _ .vmem, ⟨1, _⟩ => ⟨S16x32x1024, .i32⟩
  | .local _ .vmem, ⟨2, _⟩ => ⟨S16x1x1024, .f32⟩
  | .local _ .vmem, ⟨3, _⟩ => ⟨S16x1x1024, .f32⟩
  | .local _ .vmem, ⟨4, _⟩ => ⟨S16x32x1024, .f32⟩
  | .local _ .vmem, ⟨5, _⟩ => ⟨S16x32x1024, .f32⟩
  | _, _ => ⟨S256x32x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S16x32x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S16x32x1024_S16x32x1024_0_0_0 : ∀ a, (![0, 0, 0] : Fin 3 → Nat) a + S16x32x1024.size a ≤ S16x32x1024.size a
  h_S16x32x1024 : 0 < S16x32x1024.numel
  inb_S16x1x1024_S16x1x1024_0_0_0 : ∀ a, (![0, 0, 0] : Fin 3 → Nat) a + S16x1x1024.size a ≤ S16x1x1024.size a
  h_S16x1x1024 : 0 < S16x1x1024.numel
  broadcasts_S16x1x1024_S16x32x1024 : S16x1x1024.Broadcasts S16x32x1024
  shapeCasts_S256x32x8192_S8192x8192 : S256x32x8192.ShapeCasts S8192x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32x1024.size a ≤ S256x32x8192.size a
  hwx0_0 : ∀ i : grid0.Coords, EltTy.bits .i32 = 32 ∨ (Rect.block (s := S256x32x8192) S16x32x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x1024.size a ≤ S256x1x8192.size a
  hwx0_1 : ∀ i : grid0.Coords, EltTy.bits .f32 = 32 ∨ (Rect.block (s := S256x1x8192) S16x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x32x1024.size a ≤ S256x32x8192.size a
  hwx0_2 : ∀ i : grid0.Coords, EltTy.bits .f32 = 32 ∨ (Rect.block (s := S256x32x8192) S16x32x1024.size (cc0_transform_2 i) (hinb0_2 i)).WholeWords (EltTy.packing .f32)

variable [Facts₀]

abbrev win0_0 : Pipeline.Window sig grid0 :=
  Pipeline.Window.ofSpec (Memref.whole main_arg0) S16x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x32x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x32x8192 : Shape := ⟨3, ![256, 32, 8192]⟩
abbrev S256x1x8192 : Shape := ⟨3, ![256, 1, 8192]⟩
abbrev S_ : Shape := ⟨0, ![]⟩
abbrev S8192x8192 : Shape := ⟨2, ![8192, 8192]⟩

abbrev nBuf : Space → Nat
  | .hbm => 35
  | .vmem => 0
  | .smem => 0
  | _ => 0

abbrev bufTy : (tb : Table) → Fin (tcTables nBuf tb) → BufTy
  | .hbm, ⟨0, _⟩ => ⟨S256x32x8192, .i32⟩
  | .hbm, ⟨1, _⟩ => ⟨S256x1x8192, .f32⟩
  | .hbm, ⟨2, _⟩ => ⟨S_, .i32⟩
  | .hbm, ⟨3, _⟩ => ⟨S256x32x8192, .i32⟩
  | .hbm, ⟨4, _⟩ => ⟨S256x32x8192, .i1⟩
  | .hbm, ⟨5, _⟩ => ⟨S_, .i32⟩
  | .hbm, ⟨6, _⟩ => ⟨S256x32x8192, .i32⟩
  | .hbm, ⟨7, _⟩ => ⟨S256x32x8192, .i32⟩
  | .hbm, ⟨8, _⟩ => ⟨S256x32x8192, .i32⟩
  | .hbm, ⟨9, _⟩ => ⟨S256x32x8192, .f32⟩
  | .hbm, ⟨10, _⟩ => ⟨S_, .f32⟩
  | .hbm, ⟨11, _⟩ => ⟨S256x32x8192, .f32⟩
  | .hbm, ⟨12, _⟩ => ⟨S256x32x8192, .f32⟩
  | .hbm, ⟨13, _⟩ => ⟨S_, .f32⟩
  | .hbm, ⟨14, _⟩ => ⟨S256x32x8192, .f32⟩
  | .hbm, ⟨15, _⟩ => ⟨S256x32x8192, .f32⟩
  | .hbm, ⟨16, _⟩ => ⟨S256x32x8192, .f32⟩
  | .hbm, ⟨17, _⟩ => ⟨S_, .f32⟩
  | .hbm, ⟨18, _⟩ => ⟨S256x32x8192, .f32⟩
  | .hbm, ⟨19, _⟩ => ⟨S256x32x8192, .f32⟩
  | .hbm, ⟨20, _⟩ => ⟨S256x32x8192, .f32⟩
  | .hbm, ⟨21, _⟩ => ⟨S_, .f32⟩
  | .hbm, ⟨22, _⟩ => ⟨S256x32x8192, .f32⟩
  | .hbm, ⟨23, _⟩ => ⟨S256x32x8192, .f32⟩
  | .hbm, ⟨24, _⟩ => ⟨S256x32x8192, .f32⟩
  | .hbm, ⟨25, _⟩ => ⟨S_, .f32⟩
  | .hbm, ⟨26, _⟩ => ⟨S256x32x8192, .f32⟩
  | .hbm, ⟨27, _⟩ => ⟨S256x32x8192, .f32⟩
  | .hbm, ⟨28, _⟩ => ⟨S256x32x8192, .f32⟩
  | .hbm, ⟨29, _⟩ => ⟨S_, .f32⟩
  | .hbm, ⟨30, _⟩ => ⟨S256x32x8192, .f32⟩
  | .hbm, ⟨31, _⟩ => ⟨S256x32x8192, .f32⟩
  | .hbm, ⟨32, _⟩ => ⟨S256x32x8192, .f32⟩
  | .hbm, ⟨33, _⟩ => ⟨S256x32x8192, .f32⟩
  | .hbm, ⟨34, _⟩ => ⟨S8192x8192, .f32⟩
  | _, _ => ⟨S256x32x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S_S256x32x8192 : S_.BroadcastsInDim S256x32x8192 (![] : Fin 0 → Fin S256x32x8192.rank)
  bcast_S256x1x8192_S256x32x8192_0_1_2 : S256x1x8192.BroadcastsInDim S256x32x8192 (![0, 1, 2] : Fin 3 → Fin S256x32x8192.rank)
  shapeCasts_S256x32x8192_S8192x8192 : S256x32x8192.ShapeCasts S8192x8192

variable [Facts₀]

class Facts : Prop extends Facts₀ where

variable [Facts]
-- ==== Proof.Dequant.lean ====
/-
  Dequantisation, one element at a time.

  Both programs compute, for a group `g`, a row `r` of the group and a lane `n`,

      out[g, r, n] = p(x) · scales[g, 0, n],      x = float(u),   u = if q <ₛ 0 then 16 + q else q,   q = quants[g, r, n],

  where `p` is the fifth-order polynomial in Horner form

      p(x) = x·(x·(x·(x·(c₅·x − c₄) + c₃) − c₂) + c₁) − c₀

  with the six coefficients given by their binary words. Nothing here is evaluated: the same words, the same
  operations and the same order of operations stand on both sides, so the statement is about WHERE each entry is read,
  never about what the arithmetic gives. The scale of an entry is the one at the same group and lane in the scale
  array's single row (`scaleOf`); the table of all entries is `table`.
-/
import Idealize.ShloMosaic.PureOps
import Idealize.ShloMosaic.Lib.ValueIdx

noncomputable section

namespace Cert.Dequant

open Idealize.ShloMosaic

variable {F : FTy → Type} [FloatOps F]

/-- The codes' shape: 256 groups of 32 rows of 8192 lanes. -/
abbrev Codes : Shape := ⟨3, ![256, 32, 8192]⟩
/-- The scales' shape: one row per group. -/
abbrev Scales : Shape := ⟨3, ![256, 1, 8192]⟩

/-- A stored code as an unsigned nibble: a negative word is shifted up by sixteen. -/
def code (q : BitVec 32) : BitVec 32 :=
  Scalar.select (IntOp.cmpi .slt q 0#32) (IntOp.addi 16#32 q) q

/-- The codebook polynomial in Horner form, coefficients by their binary words, highest degree innermost. -/
def poly (x : F .f32) : F .f32 :=
  FloatOps.subf
    (FloatOps.mulf x
      (FloatOps.addf
        (FloatOps.mulf x
          (FloatOps.subf
            (FloatOps.mulf x
              (FloatOps.addf
                (FloatOps.mulf x
                  (FloatOps.subf (FloatOps.mulf (FloatOps.ofBits .f32 0x379976BD#32) x) (FloatOps.ofBits .f32 0x3A33CC7B#32)))
                (FloatOps.ofBits .f32 0x3C24874F#32)))
            (FloatOps.ofBits .f32 0x3D94027B#32)))
        (FloatOps.ofBits .f32 0x3EB130CD#32)))
    (FloatOps.ofBits .f32 0x3F7E81AD#32)

/-- One dequantised entry from its code word and its scale. -/
def entry (q : BitVec 32) (s : F .f32) : F .f32 :=
  FloatOps.mulf (poly (FloatOps.sitofp .f32 (code q))) s

/-- Where an entry's scale sits: same group, same lane, the scale array's only row. -/
def scaleOf (i : Codes.Idx) : Scales.Idx := fun a => match a with
  | ⟨0, _⟩ => ⟨(i 0).val, (i 0).isLt⟩
  | ⟨1, _⟩ => ⟨0, Nat.one_pos⟩
  | ⟨2, _⟩ => ⟨(i 2).val, (i 2).isLt⟩

theorem scaleOf_val0 (i : Codes.Idx) : (scaleOf i 0).val = (i 0).val := rfl
theorem scaleOf_val1 (i : Codes.Idx) : (scaleOf i 1).val = 0 := rfl
theorem scaleOf_val2 (i : Codes.Idx) : (scaleOf i 2).val = (i 2).val := rfl

/-- The whole dequantised table as ONE function of the two argument arrays, entry by entry. -/
def table (q : Codes.Idx → Elt F .i32) (s : Scales.Idx → Elt F .f32) : Codes.Idx → Elt F .f32 :=
  fun i => entry (q i) (s (scaleOf i))

theorem table_apply (q : Codes.Idx → Elt F .i32) (s : Scales.Idx → Elt F .f32) (i : Codes.Idx) :
    table q s i = entry (q i) (s (scaleOf i)) := rfl

end Cert.Dequant

end
-- ==== Proof.RefTable.lean ====
/-
  The reference computes the dequantised table.

  The reference's last stage before its reshape multiplies the polynomial of the converted codes by the scales broadcast
  along the row axis. Read at an entry `i`, every operation of it is pointwise except that broadcast, which reads the
  scale array at `i`'s group and lane in its only row: the entry is `Dequant.entry` of the code at `i` and the scale at
  `Dequant.scaleOf i`.
-/
import proofs.«108381_j51591147159910_1_alg».proof.Proof.Gen.ReferenceIdeal.Read
import proofs.«108381_j51591147159910_1_alg».proof.Proof.Dequant

noncomputable section

namespace Cert.Dequant.Reference

open Cert.ReferenceIdeal Cert.ReferenceIdeal.Gen Cert.ReferenceIdeal.Read Idealize.ShloMosaic

variable {F : FTy → Type} [FloatOps F]

/-- The broadcast's source index is the entry's scale position. -/
theorem scale_index (i : S256x32x8192.Idx) : idx_main_v22 i = scaleOf i :=
  funext fun a => match a with
    | ⟨0, _⟩ => rfl
    | ⟨1, _⟩ => rfl
    | ⟨2, _⟩ => rfl

/-- The reference's product stage is the table, entry by entry. -/
theorem product_stage (q : (⟨S256x32x8192, .i32⟩ : BufTy).Contents (Elt F)) (s : (⟨S256x1x8192, .f32⟩ : BufTy).Contents (Elt F)) :
    val_main_v23 (F := F) q s = table q s := by
  funext i
  rw [val_main_v23_apply, val_main_v22_apply, scale_index]
  rfl

/-- So the reference's result is the table under the final reshape. -/
theorem result_stage (q : (⟨S256x32x8192, .i32⟩ : BufTy).Contents (Elt F)) (s : (⟨S256x1x8192, .f32⟩ : BufTy).Contents (Elt F)) :
    val_main_v24 (F := F) q s = shapeCast S8192x8192 (table q s) shapeCasts_S256x32x8192_S8192x8192 := by
  unfold val_main_v24
  rw [product_stage]

end Cert.Dequant.Reference

end
-- ==== Proof.KernelBlock.lean ====
/-
  The kernel's output array after its region is the dequantised table.

  A grid point `t = (a, b)` works on groups `16a … 16a+15` and lanes `1024b … 1024b+1023`: its code block and its
  output block are the box [16, 32, 1024] at block index (a, 0, b) of the [256, 32, 8192] arrays, its scale block the
  box [16, 1, 1024] at block index (a, 0, b) of the [256, 1, 8192] array. The body stores ONE value over the whole
  output block: at the block's entry `y` it is `Dequant.entry` of the code block at `y` and of the scale block at
  `y`'s group and lane in the block's only row (the body's broadcast along the row axis). Since the three index maps
  agree, entry `y` of the blocks is entry (16a + y₀, y₁, 1024b + y₂) of the arrays, and its scale sits at
  (16a + y₀, 0, 1024b + y₂) — which is `Dequant.scaleOf` of that entry. So what a point writes back is its block of
  `Dequant.table`; the 16 × 8 blocks tile the array, hence the array ends as the table.
-/
import proofs.«108381_j51591147159910_1_alg».proof.Proof.Gen.KernelIdeal.Frame
import proofs.«108381_j51591147159910_1_alg».proof.Proof.Dequant
import Idealize.ShloMosaic.Lib.Pipeline.Value

set_option maxRecDepth 16384

noncomputable section

namespace Cert.Dequant.Kernel

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The body's value at an entry of the block -/

theorem zero3 : (![0, 0, 0] : Fin 3 → Nat) = fun _ => 0 := funext fun a => by fin_cases a <;> rfl

/-- Inside a block, an entry's scale: same group, same lane, the scale block's only row. -/
def blockScale (y : S16x32x1024.Idx) : S16x1x1024.Idx := fun a => match a with
  | ⟨0, _⟩ => ⟨(y 0).val, (y 0).isLt⟩
  | ⟨1, _⟩ => ⟨0, Nat.one_pos⟩
  | ⟨2, _⟩ => ⟨(y 2).val, (y 2).isLt⟩

/-- The body's broadcast of the scale block along the row axis, read at an entry. -/
theorem scale_broadcast (x1 : Vec F S16x1x1024 .f32) (y : S16x32x1024.Idx) :
    broadcastTo S16x32x1024 x1 broadcasts_S16x1x1024_S16x32x1024 y = x1 (blockScale y) :=
  broadcastTo_apply x1 broadcasts_S16x1x1024_S16x32x1024 y (blockScale y) (fun a => match a with
    | ⟨0, _⟩ => by show (y 0).val = if (16 : Nat) = 1 then 0 else (y 0).val; rw [if_neg (by decide)]
    | ⟨1, _⟩ => by show 0 = if (1 : Nat) = 1 then 0 else (y 1).val; rw [if_pos rfl]
    | ⟨2, _⟩ => by show (y 2).val = if (1024 : Nat) = 1 then 0 else (y 2).val; rw [if_neg (by decide)])

/-- The stored value at an entry of the block: the entry's code and its scale through `Dequant.entry`. -/
theorem stored_apply (x0 : Vec F S16x32x1024 .i32) (x1 : Vec F S16x1x1024 .f32) (y : S16x32x1024.Idx) :
    k0_pay1 x0 x1 y = entry (x0 y) (x1 (blockScale y)) := by
  show FloatOps.mulf _ (broadcastTo S16x32x1024 x1 broadcasts_S16x1x1024_S16x32x1024 y) = _
  rw [scale_broadcast]
  rfl

/-! ## The three index maps over the grid -/

/-- Decided over the 128 points: the code window and the scale window sit at the output window's block index (the
    scale window's row block being 0), and the output's block indices stay in 0…15, 0, 0…7. -/
theorem index_maps : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 3) = win0_2.index t (0 : Fin 3)
    ∧ win0_1.index t (1 : Fin 3) = 0
    ∧ win0_1.index t (2 : Fin 3) = win0_2.index t (2 : Fin 3)
    ∧ win0_2.index t (0 : Fin 3) ≤ 15
    ∧ win0_2.index t (1 : Fin 3) = 0
    ∧ win0_2.index t (2 : Fin 3) ≤ 7 :=
  (by decide +kernel : ∀ t : Fin grid0.N, _)

/-- Every (group block, lane block) pair is some point's. -/
theorem index_onto : ∀ (a : Fin 16) (b : Fin 8), ∃ t : Fin cfg0.N, win0_2.index t = ![a.val, 0, b.val] :=
  (by decide +kernel : ∀ (a : Fin 16) (b : Fin 8), ∃ t : Fin grid0.N, win0_2.index t = ![a.val, 0, b.val])

/-! ## What a point writes back -/

/-- Point `t` writes back its block of the table of the argument arrays. -/
theorem written_back (c : Dev nD) (t : Fin cfg0.N) :
    (dats m 0 c).flushed 2 t = ((cfg0.win 2).blk t).view.read (Elt F) (table (V m c main_arg0) (V m c main_arg1)) := by
  show (cfg0.win 2).cut (grid0.coords t) ((dats m 0 c).after 2 t) = _
  rw [after0_2]
  unfold out0_2
  rw [View.canon_unit_zero zero3]
  simp only [View.ld_unit_zero (S := S16x32x1024) zero3, View.ld_unit_zero (S := S16x1x1024) zero3]
  obtain ⟨e00, e01, e02, e10, e11, e12, r0, r1, r2⟩ := index_maps t
  funext j
  show k0_pay1 (iblk m c 0 t) (iblk m c 1 t) j = table (V m c main_arg0) (V m c main_arg1) (((cfg0.win 2).blk t).view.emb j)
  rw [stored_apply, table_apply]
  show entry (V m c main_arg0 (((cfg0.win 0).blk t).view.emb j)) (V m c main_arg1 (((cfg0.win 1).blk t).view.emb (blockScale j)))
    = entry (V m c main_arg0 (((cfg0.win 2).blk t).view.emb j)) (V m c main_arg1 (scaleOf (((cfg0.win 2).blk t).view.emb j)))
  have h0 : ((cfg0.win 0).blk t).view.emb j = ((cfg0.win 2).blk t).view.emb j := by
    funext a; apply Fin.ext
    match a with
    | ⟨0, _⟩ => show win0_0.index t (0 : Fin 3) * 16 + 1 * (j 0).val = win0_2.index t (0 : Fin 3) * 16 + 1 * (j 0).val; omega
    | ⟨1, _⟩ => show win0_0.index t (1 : Fin 3) * 32 + 1 * (j 1).val = win0_2.index t (1 : Fin 3) * 32 + 1 * (j 1).val; omega
    | ⟨2, _⟩ => show win0_0.index t (2 : Fin 3) * 1024 + 1 * (j 2).val = win0_2.index t (2 : Fin 3) * 1024 + 1 * (j 2).val; omega
  have h1 : ((cfg0.win 1).blk t).view.emb (blockScale j) = scaleOf (((cfg0.win 2).blk t).view.emb j) := by
    funext a; apply Fin.ext
    match a with
    | ⟨0, _⟩ => show win0_1.index t (0 : Fin 3) * 16 + 1 * (j 0).val = win0_2.index t (0 : Fin 3) * 16 + 1 * (j 0).val; omega
    | ⟨1, _⟩ => show win0_1.index t (1 : Fin 3) * 1 + 1 * 0 = 0; omega
    | ⟨2, _⟩ => show win0_1.index t (2 : Fin 3) * 1024 + 1 * (j 2).val = win0_2.index t (2 : Fin 3) * 1024 + 1 * (j 2).val; omega
  rw [h0, h1]

/-! ## The blocks tile the array -/

/-- An entry is in point `t`'s block iff each coordinate is in the block's range on its axis. -/
theorem mem_block (t : Fin cfg0.N) (i : S256x32x8192.Idx) :
    i ∈ ((cfg0.win 2).blk t).view.set ↔ ∀ a : Fin 3, win0_2.index t a * S16x32x1024.size a ≤ (i a).val ∧ (i a).val < win0_2.index t a * S16x32x1024.size a + S16x32x1024.size a := by
  show i ∈ ((View.whole main_v0).slice (win0_2.rect t)).set ↔ _
  rw [View.set_slice_whole, Rect.mem_set_unit]
  exact Iff.rfl

/-- Every entry (g, r, n) is in the block of the point at (g / 16, n / 1024), which writes back. -/
theorem tiled (i : S256x32x8192.Idx) :
    ∃ t : Fin cfg0.N, (cfg0.win 2).flush t = true ∧ i ∈ ((cfg0.win 2).blk t).view.set := by
  have hi0 : (i 0).val < 256 := (i 0).isLt
  have hi1 : (i 1).val < 32 := (i 1).isLt
  have hi2 : (i 2).val < 8192 := (i 2).isLt
  obtain ⟨t, ht⟩ := index_onto ⟨(i 0).val / 16, by omega⟩ ⟨(i 2).val / 1024, by omega⟩
  have q0 : win0_2.index t (0 : Fin 3) = (i 0).val / 16 := congrFun ht 0
  have q1 : win0_2.index t (1 : Fin 3) = 0 := congrFun ht 1
  have q2 : win0_2.index t (2 : Fin 3) = (i 2).val / 1024 := congrFun ht 2
  refine ⟨t, flush0_2 t, ?_⟩
  rw [mem_block]
  intro a
  match a with
  | ⟨0, _⟩ => show win0_2.index t (0 : Fin 3) * 16 ≤ (i 0).val ∧ (i 0).val < win0_2.index t (0 : Fin 3) * 16 + 16; omega
  | ⟨1, _⟩ => show win0_2.index t (1 : Fin 3) * 32 ≤ (i 1).val ∧ (i 1).val < win0_2.index t (1 : Fin 3) * 32 + 32; omega
  | ⟨2, _⟩ => show win0_2.index t (2 : Fin 3) * 1024 ≤ (i 2).val ∧ (i 2).val < win0_2.index t (2 : Fin 3) * 1024 + 1024; omega

/-! ## The array after the region -/

/-- After every write-back the output array is the table of the argument arrays as launched. -/
theorem array_after (c : Dev nD) :
    (dats m 0 c).arrAt 2 cfg0.N = table (m ((c : Thread nD τ).loc main_arg0)) (m ((c : Thread nD τ).loc main_arg1)) :=
  (dats m 0 c).arrAt_eq_of_cover 2 _ (fun t _ => written_back m c t) tiled

end Cert.Dequant.Kernel

end
-- ==== Proof.KernelRun.lean ====
/-
  The kernel program's run, with its result named.

  After the region the program reshapes the [256, 32, 8192] output array to [8192, 8192]. The frame run leaves every
  array of the region at what the write-backs make of it — for the output array the dequantised table
  (`Kernel.array_after`) — and every other buffer at what the operations after the region compute from those arrays.
  The result buffer is no array of the region, so it ends at the reshape of the output array: the table under the
  reshape. The two argument arrays are staged and never written back, so they end as launched.
-/
import proofs.«108381_j51591147159910_1_alg».proof.Proof.KernelBlock
import Idealize.ShloMosaic.Lib.StableHlo.Run

set_option maxRecDepth 16384

noncomputable section

namespace Cert.Dequant.Kernel

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The result buffer is unscoped and is none of the region's three arrays. -/
theorem result_outside : main_v1 ∈ Pipeline.restRefs sig cfg0.spec :=
  Pipeline.mem_restRefs_of main_v1 rfl (by decide)

/-- What the reshape after the region leaves in the result buffer: the table of the launched arguments, reshaped. -/
theorem result_after (c : Dev nD) :
    Pipeline.afterTail₀ cfgs (dats m) 0 (V0 m) [hostOps1] c main_v1
      = shapeCast S8192x8192 (table (m ((c : Thread nD τ).loc main_arg0)) (m ((c : Thread nD τ).loc main_arg1)))
          shapeCasts_S256x32x8192_S8192x8192 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = table (m ((c : Thread nD τ).loc main_arg0)) (m ((c : Thread nD τ).loc main_arg1)) :=
    (Pipeline.withArrays_arr spec0 launch0.win.arr_inj c _ _ 2).trans (array_after m c)
  rw [e]
  rfl

/-- THE KERNEL PROGRAM'S RUN: every weakly fair execution ends with the result buffer at the table of the launched
    arguments under the reshape, and the two argument arrays as launched. -/
theorem run : θ_run defs (onTc (τ := τ) (main (F := F))) ⟨m, fun _ => 0, ρ⟩ fun r => ∀ c : Dev nD,
      r.2.mem ((c : Thread nD τ).loc main_v1)
        = shapeCast S8192x8192 (table (m ((c : Thread nD τ).loc main_arg0)) (m ((c : Thread nD τ).loc main_arg1)))
            shapeCasts_S256x32x8192_S8192x8192
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 result_outside).trans (result_after m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Dequant.Kernel

end
-- ==== Proof.lean ====
/-
  Group-wise dequantisation through a codebook polynomial: the Pallas kernel against its jnp reference, over the
  extended reals.

  Both programs take integer codes q[256, 32, 8192] and per-group scales s[256, 1, 8192] and return, reshaped to
  [8192, 8192],

      out[g, r, n] = p(float(u)) · s[g, 0, n],     u = if q[g, r, n] <ₛ 0 then 16 + q[g, r, n] else q[g, r, n],

  with p the same fifth-order Horner polynomial, coefficient word for coefficient word, operation for operation, in the
  same order. So no law of arithmetic joins the two sides, and the precondition (finite scales) is never opened: the claim is
  about where each entry is read.

  * `Proof/Dequant.lean` states one entry (`entry`), where its scale sits (`scaleOf`) and the whole table (`table`).
  * `Proof/RefTable.lean`: the reference's last stage before its reshape is the table (every operation pointwise, the
    scale broadcast along the row axis read at `scaleOf`).
  * `Proof/KernelBlock.lean`: the kernel runs on a 16 × 8 grid, point (a, b) on groups 16a…16a+15 and lanes
    1024b…1024b+1023; what it writes back is its block of the table, the blocks tile the array, so the array ends as the table.
  * `Proof/KernelRun.lean`: the reshape after the region then leaves the table, reshaped, in the result.

  Both results are the SAME reshape of the SAME table of arguments that agree: `algebraic`. The three frames are the
  generated frame runs (the reference's its generated run with the result dropped); the idealisation rewrote nothing, so
  `preserves` has nothing to state.
-/
import proofs.«108381_j51591147159910_1_alg».proof.Defs
import proofs.«108381_j51591147159910_1_alg».proof.Proof.Gen.Kernel
import proofs.«108381_j51591147159910_1_alg».proof.Proof.Gen.Kernel.Skeleton
import proofs.«108381_j51591147159910_1_alg».proof.Proof.Gen.Kernel.Launch
import proofs.«108381_j51591147159910_1_alg».proof.Proof.Gen.Kernel.Points
import proofs.«108381_j51591147159910_1_alg».proof.Proof.Gen.Kernel.Frame
import proofs.«108381_j51591147159910_1_alg».proof.Proof.Gen.KernelIdeal
import proofs.«108381_j51591147159910_1_alg».proof.Proof.Gen.KernelIdeal.Skeleton
import proofs.«108381_j51591147159910_1_alg».proof.Proof.Gen.KernelIdeal.Launch
import proofs.«108381_j51591147159910_1_alg».proof.Proof.Gen.KernelIdeal.Points
import proofs.«108381_j51591147159910_1_alg».proof.Proof.Gen.KernelIdeal.Frame
import proofs.«108381_j51591147159910_1_alg».proof.Proof.Gen.ReferenceIdeal
import proofs.«108381_j51591147159910_1_alg».proof.Proof.Gen.Pre_finite_inputs
import proofs.«108381_j51591147159910_1_alg».proof.Proof.Gen.ReferenceIdeal.Run
import proofs.«108381_j51591147159910_1_alg».proof.Proof.Gen.ReferenceIdeal.Read
import proofs.«108381_j51591147159910_1_alg».proof.Proof.RefTable
import proofs.«108381_j51591147159910_1_alg».proof.Proof.KernelRun
import Idealize.ShloMosaic.Adequacy
import Idealize.ShloMosaic.Init

noncomputable section

namespace Cert.Proof

open Idealize.ShloMosaic Idealize.SL.Sem

/-- The kernel program as printed runs and keeps its arguments: its generated frame run. -/
theorem frame_kernel : Cert.frame_Kernel := fun m ρ _ => Cert.Kernel.Gen.frame m ρ

/-- So does its idealisation. -/
theorem frame_kernel_ideal : Cert.frame_KernelIdeal := fun m ρ _ => Cert.KernelIdeal.Gen.frame m ρ

/-- The reference is host operations only: its generated run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From arguments that agree, the kernel program ends at the table of its arguments under the reshape
    (`Dequant.Kernel.run`), and the reference at its composed term, which is the same reshape of the same table
    (`Dequant.Reference.result_stage`). -/
theorem algebraic : Cert.algebraic_KernelIdeal_ReferenceIdeal := by
  intro m ρ m' ρ' _ hagree
  refine ⟨_, Cert.Dequant.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.Dequant.Reference.result_stage, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
